-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x40 : Shape := ⟨2, ![16384, 40]⟩
abbrev S40x16 : Shape := ⟨2, ![40, 16]⟩
abbrev S4096x2688 : Shape := ⟨2, ![4096, 2688]⟩
abbrev S4096 : Shape := ⟨1, ![4096]⟩
abbrev S1x4096 : Shape := ⟨2, ![1, 4096]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S40x16 : S_.BroadcastsInDim S40x16 (![] : Fin 0 → Fin S40x16.rank)
  reducesTo_S40x16_S_d0_1 : S40x16.ReducesTo [0, 1] S_
  bcast_S_S4096x2688 : S_.BroadcastsInDim S4096x2688 (![] : Fin 0 → Fin S4096x2688.rank)
  reducesTo_S4096x2688_S_d0_1 : S4096x2688.ReducesTo [0, 1] S_
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S4096x2688 .f32) (main_arg6 : FVec F S4096 .f32) (main_arg7 : FVec F S1x4096 .f32) (main_arg8 : FVec F S1 .f32) (main_v13 : IVec S_ 1) (main_v16 : IVec S40x16 1) : IVec S_ 1 :=
  let main_c_5 : IVec S_ 1 := constantI S_ 1 1#1
  let main_v17 : IVec S_ 1 := (fun x v => Host.reduce IntOp.andi x v reducesTo_S40x16_S_d0_1 h_S_) main_v16 main_c_5
  let main_v18 : IVec S_ 1 := andi main_v13 main_v17
  let main_v19 : FVec F S4096x2688 .f32 := Host.absf main_arg5
  let main_cst_6 : FVec F S_ .f32 := constant S_ .f32 0x7F800000#32
  let main_v20 : FVec F S4096x2688 .f32 := broadcastInDim S4096x2688 ![] bcast_S_S4096x2688 main_cst_6
  let main_v21 : IVec S4096x2688 1 := cmpf .olt main_v19 main_v20
  let main_c_7 : IVec S_ 1 := constantI S_ 1 1#1
  let main_v22 : IVec S_ 1 := (fun x v => Host.reduce IntOp.andi x v reducesTo_S4096x2688_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1x4096 .f32 := Host.absf main_arg7
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  fn_part2 (F := F) main_arg8 main_v33

def fn {F : FTy → Type} [FloatOps F] (main_arg0 : FVec F S16384x1024 .f32) (main_arg1 : FVec F S16384x1024 .f32) (main_arg2 : IVec S16384x40 32) (main_arg3 : FVec F S40x16 .f32) (main_arg4 : FVec F S40x16 .f32) (main_arg5 : FVec F S4096x2688 .f32) (main_arg6 : FVec F S4096 .f32) (main_arg7 : FVec F S1x4096 .f32) (main_arg8 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S40x16 .f32 := Host.absf main_arg3
  let main_cst_2 : FVec F S_ .f32 := constant S_ .f32 0x7F800000#32
  let main_v10 : FVec F S40x16 .f32 := broadcastInDim S40x16 ![] bcast_S_S40x16 main_cst_2
  let main_v11 : IVec S40x16 1 := cmpf .olt main_v9 main_v10
  let main_c_3 : IVec S_ 1 := constantI S_ 1 1#1
  let main_v12 : IVec S_ 1 := (fun x v => Host.reduce IntOp.andi x v reducesTo_S40x16_S_d0_1 h_S_) main_v11 main_c_3
  let main_v13 : IVec S_ 1 := andi main_v8 main_v12
  let main_v14 : FVec F S40x16 .f32 := Host.absf main_arg4
  let main_cst_4 : FVec F S_ .f32 := constant S_ .f32 0x7F800000#32
  let main_v15 : FVec F S40x16 .f32 := broadcastInDim S40x16 ![] bcast_S_S40x16 main_cst_4
  let main_v16 : IVec S40x16 1 := cmpf .olt main_v14 main_v15
  fn_part1 (F := F) main_arg5 main_arg6 main_arg7 main_arg8 main_v13 main_v16
-- ==== Kernel.lean ====
abbrev S16384x1024 : Shape := ⟨2, ![16384, 1024]⟩
abbrev S16384x40 : Shape := ⟨2, ![16384, 40]⟩
abbrev S40x16 : Shape := ⟨2, ![40, 16]⟩
abbrev S4096x2688 : Shape := ⟨2, ![4096, 2688]⟩
abbrev S4096 : Shape := ⟨1, ![4096]⟩
abbrev S1x4096 : Shape := ⟨2, ![1, 4096]⟩
abbrev S1 : Shape := ⟨1, ![1]⟩
abbrev S640 : Shape := ⟨1, ![640]⟩
abbrev S40x40 : Shape := ⟨2, ![40, 40]⟩
abbrev S_ : Shape := ⟨0, ![]⟩
abbrev S40x40x16 : Shape := ⟨3, ![40, 40, 16]⟩
abbrev S40x640 : Shape := ⟨2, ![40, 640]⟩
abbrev S16384x1 : Shape := ⟨2, ![16384, 1]⟩
abbrev S512x1024 : Shape := ⟨2, ![512, 1024]⟩
abbrev S512x40 : Shape := ⟨2, ![512, 40]⟩
abbrev S512x1 : Shape := ⟨2, ![512, 1]⟩
abbrev S512x640 : Shape := ⟨2, ![512, 640]⟩
abbrev S1x640 : Shape := ⟨2, ![1, 640]⟩
abbrev S4096x1024 : Shape := ⟨2, ![4096, 1024]⟩
abbrev S512x4096 : Shape := ⟨2, ![512, 4096]⟩
abbrev S4096x640 : Shape := ⟨2, ![4096, 640]⟩
abbrev S512 : Shape := ⟨1, ![512]⟩
abbrev S1x1 : Shape := ⟨2, ![1, 1]⟩

abbrev nBuf : Space → Nat
  | .hbm => 23
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x40, .i32⟩
  | .hbm, ⟨3, _⟩ => ⟨S40x16, .f32⟩
  | .hbm, ⟨4, _⟩ => ⟨S40x16, .f32⟩
  | .hbm, ⟨5, _⟩ => ⟨S4096x2688, .f32⟩
  | .hbm, ⟨6, _⟩ => ⟨S4096, .f32⟩
  | .hbm, ⟨7, _⟩ => ⟨S1x4096, .f32⟩
  | .hbm, ⟨8, _⟩ => ⟨S1, .f32⟩
  | .hbm, ⟨9, _⟩ => ⟨S640, .f32⟩
  | .hbm, ⟨10, _⟩ => ⟨S640, .f32⟩
  | .hbm, ⟨11, _⟩ => ⟨S40x40, .i32⟩
  | .hbm, ⟨12, _⟩ => ⟨S40x40, .i32⟩
  | .hbm, ⟨13, _⟩ => ⟨S_, .i32⟩
  | .hbm, ⟨14, _⟩ => ⟨S40x40, .i32⟩
  | .hbm, ⟨15, _⟩ => ⟨S40x40, .i32⟩
  | .hbm, ⟨16, _⟩ => ⟨S40x40, .i1⟩
  | .hbm, ⟨17, _⟩ => ⟨S40x40, .bf16⟩
  | .hbm, ⟨18, _⟩ => ⟨S40x40x16, .bf16⟩
  | .hbm, ⟨19, _⟩ => ⟨S40x640, .bf16⟩
  | .hbm, ⟨20, _⟩ => ⟨S4096x2688, .bf16⟩
  | .hbm, ⟨21, _⟩ => ⟨S4096, .f32⟩
  | .hbm, ⟨22, _⟩ => ⟨S16384x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x40, .i32⟩
  | .local _ .vmem, ⟨5, _⟩ => ⟨S512x40, .i32⟩
  | .local _ .vmem, ⟨6, _⟩ => ⟨S640, .f32⟩
  | .local _ .vmem, ⟨7, _⟩ => ⟨S640, .f32⟩
  | .local _ .vmem, ⟨8, _⟩ => ⟨S40x640, .bf16⟩
  | .local _ .vmem, ⟨9, _⟩ => ⟨S4096x2688, .bf16⟩
  | .local _ .vmem, ⟨10, _⟩ => ⟨S4096, .f32⟩
  | .local _ .vmem, ⟨11, _⟩ => ⟨S4096, .f32⟩
  | .local _ .vmem, ⟨12, _⟩ => ⟨S1, .f32⟩
  | .local _ .vmem, ⟨13, _⟩ => ⟨S512x1, .f32⟩
  | .local _ .vmem, ⟨14, _⟩ => ⟨S512x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x40 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S40x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x2688 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S40x16_S640 : S40x16.ShapeCasts S640
  bcast_S_S40x40 : S_.BroadcastsInDim S40x40 (![] : Fin 0 → Fin S40x40.rank)
  bcast_S40x40_S40x40x16_0_1 : S40x40.BroadcastsInDim S40x40x16 (![0, 1] : Fin 2 → Fin S40x40x16.rank)
  shapeCasts_S40x40x16_S40x640 : S40x40x16.ShapeCasts S40x640
  bitsLt_bf16_f32 : FTy.bits .bf16 < FTy.bits .f32
  shapeCasts_S1x4096_S4096 : S1x4096.ShapeCasts S4096
  inb_S512x40_S512x40_0_0 : ∀ a, (![0, 0] : Fin 2 → Nat) a + S512x40.size a ≤ S512x40.size a
  h_S512x40 : 0 < S512x40.numel
  natLt_1_32 : 1 < 32
  inb_S40x640_S40x640_0_0 : ∀ a, (![0, 0] : Fin 2 → Nat) a + S40x640.size a ≤ S40x640.size a
  h_S40x640 : 0 < S40x640.numel
  shapeCasts_S40x640_S40x640 : S40x640.ShapeCasts S40x640
  inb_S640_S640_0 : ∀ a, (![0] : Fin 1 → Nat) a + S640.size a ≤ S640.size a
  h_S640 : 0 < S640.numel
  shapeCasts_S640_S640 : S640.ShapeCasts S640
  shapeCasts_S640_S1x640 : S640.ShapeCasts S1x640
  shapeCasts_S1x640_S1x640 : S1x640.ShapeCasts S1x640
  broadcasts_S1x640_S512x640 : S1x640.Broadcasts S512x640
  inb_S512x1024_S512x1024_0_0 : ∀ a, (![0, 0] : Fin 2 → Nat) a + S512x1024.size a ≤ S512x1024.size a
  h_S512x1024 : 0 < S512x1024.numel
  inb_S4096x2688_S4096x1024_0_0 : ∀ a, (![0, 0] : Fin 2 → Nat) a + S4096x1024.size a ≤ S4096x2688.size a
  h_S4096x1024 : 0 < S4096x1024.numel
  shapeCasts_S4096x1024_S4096x1024 : S4096x1024.ShapeCasts S4096x1024
  inb_S4096x2688_S4096x1024_0_1024 : ∀ a, (![0, 1024] : Fin 2 → Nat) a + S4096x1024.size a ≤ S4096x2688.size a
  inb_S4096x2688_S4096x640_0_2048 : ∀ a, (![0, 2048] : Fin 2 → Nat) a + S4096x640.size a ≤ S4096x2688.size a
  h_S4096x640 : 0 < S4096x640.numel
  shapeCasts_S4096x640_S4096x640 : S4096x640.ShapeCasts S4096x640
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  shapeCasts_S4096_S4096 : S4096.ShapeCasts S4096
  reduces_S512x4096_S512 : S512x4096.Reduces [1] S512
  shapeCasts_S512_S512x1 : S512.ShapeCasts S512x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x40_S40x640_S512x640_1_0_0_1_n_n_wf : DotDims.WF S512x40 S40x640 S512x640 [1] [0] [0] [1] [] []
  dot_S512x1024_S4096x1024_S512x4096_1_1_0_0_n_n_wf : DotDims.WF S512x1024 S4096x1024 S512x4096 [1] [1] [0] [0] [] []
  dot_S512x640_S4096x640_S512x4096_1_1_0_0_n_n_wf : DotDims.WF S512x640 S4096x640 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x40.size a ≤ S16384x40.size a
  hwx0_2 : ∀ i : grid0.Coords, EltTy.bits .i32 = 32 ∨ (Rect.block (s := S16384x40) S512x40.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640.size a ≤ S640.size a
  hwx0_4 : ∀ i : grid0.Coords, EltTy.bits .f32 = 32 ∨ (Rect.block (s := S640) S640.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x640.size a ≤ S40x640.size a
  hwx0_5 : ∀ i : grid0.Coords, EltTy.bits .bf16 = 32 ∨ (Rect.block (s := S40x640) S40x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096x2688.size a ≤ S4096x2688.size a
  hwx0_6 : ∀ i : grid0.Coords, EltTy.bits .bf16 = 32 ∨ (Rect.block (s := S4096x2688) S4096x2688.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S4096.size a
  hwx0_7 : ∀ i : grid0.Coords, EltTy.bits .f32 = 32 ∨ (Rect.block (s := S4096) S4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S4096.size a
  hwx0_8 : ∀ i : grid0.Coords, EltTy.bits .f32 = 32 ∨ (Rect.block (s := S4096) S4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S16384x1.size a
  hwx0_10 : ∀ i : grid0.Coords, EltTy.bits .f32 = 32 ∨ (Rect.block (s := S16384x1) S512x1.size (cc0_transform_10 i) (hinb0_10 i)).WholeWords (EltTy.packing .f32)

variable [Facts₀]

def dot_S512x40_S40x640_S512x640_1_0_0_1_n_n : DotDims S512x40 S40x640 S512x640 where
  lhsContracting := [1]
  rhsContracting := [0]
  lhsNonContracting := [0]
  rhsNonContracting := [1]
  lhsBatch := []
  rhsBatch := []
  wf := dot_S512x40_S40x640_S512x640_1_0_0_1_n_n_wf
def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf
def dot_S512x640_S4096x640_S512x4096_1_1_0_0_n_n : DotDims S512x640 S4096x640 S512x4096 where
  lhsContracting := [1]
  rhsContracting := [1]
  lhsNonContracting := [0]
  rhsNonContracting := [0]
  lhsBatch := []
  rhsBatch := []
  wf := dot_S512x640_S4096x640_S512x4096_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x40.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S40x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4096x2688.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x40 : Shape := ⟨2, ![16384, 40]⟩
abbrev S40x16 : Shape := ⟨2, ![40, 16]⟩
abbrev S4096x2688 : Shape := ⟨2, ![4096, 2688]⟩
abbrev S4096 : Shape := ⟨1, ![4096]⟩
abbrev S1x4096 : Shape := ⟨2, ![1, 4096]⟩
abbrev S1 : Shape := ⟨1, ![1]⟩
abbrev S16384x40x1 : Shape := ⟨3, ![16384, 40, 1]⟩
abbrev S_ : Shape := ⟨0, ![]⟩
abbrev S1x40x16 : Shape := ⟨3, ![1, 40, 16]⟩
abbrev S16384x40x16 : Shape := ⟨3, ![16384, 40, 16]⟩
abbrev S16384x640 : Shape := ⟨2, ![16384, 640]⟩
abbrev S16384x2688 : Shape := ⟨2, ![16384, 2688]⟩
abbrev S2688x4096 : Shape := ⟨2, ![2688, 4096]⟩
abbrev S16384x4096 : Shape := ⟨2, ![16384, 4096]⟩
abbrev S4096x1 : Shape := ⟨2, ![4096, 1]⟩
abbrev S16384x1 : Shape := ⟨2, ![16384, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x40, .i32⟩
  | .hbm, ⟨3, _⟩ => ⟨S40x16, .f32⟩
  | .hbm, ⟨4, _⟩ => ⟨S40x16, .f32⟩
  | .hbm, ⟨5, _⟩ => ⟨S4096x2688, .f32⟩
  | .hbm, ⟨6, _⟩ => ⟨S4096, .f32⟩
  | .hbm, ⟨7, _⟩ => ⟨S1x4096, .f32⟩
  | .hbm, ⟨8, _⟩ => ⟨S1, .f32⟩
  | .hbm, ⟨9, _⟩ => ⟨S16384x40x1, .i32⟩
  | .hbm, ⟨10, _⟩ => ⟨S_, .i32⟩
  | .hbm, ⟨11, _⟩ => ⟨S16384x40x1, .i32⟩
  | .hbm, ⟨12, _⟩ => ⟨S16384x40x1, .i1⟩
  | .hbm, ⟨13, _⟩ => ⟨S1x40x16, .f32⟩
  | .hbm, ⟨14, _⟩ => ⟨S1x40x16, .f32⟩
  | .hbm, ⟨15, _⟩ => ⟨S16384x40x16, .i1⟩
  | .hbm, ⟨16, _⟩ => ⟨S16384x40x16, .f32⟩
  | .hbm, ⟨17, _⟩ => ⟨S16384x40x16, .f32⟩
  | .hbm, ⟨18, _⟩ => ⟨S16384x40x16, .f32⟩
  | .hbm, ⟨19, _⟩ => ⟨S16384x640, .f32⟩
  | .hbm, ⟨20, _⟩ => ⟨S16384x2688, .f32⟩
  | .hbm, ⟨21, _⟩ => ⟨S2688x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S4096x1, .f32⟩
  | .hbm, ⟨30, _⟩ => ⟨S16384x1, .f32⟩
  | .hbm, ⟨31, _⟩ => ⟨S1x1, .f32⟩
  | .hbm, ⟨32, _⟩ => ⟨S16384x1, .f32⟩
  | .hbm, ⟨33, _⟩ => ⟨S16384x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_cst : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]

class Facts₀ : Prop where
  bcast_S16384x40_S16384x40x1_0_1 : S16384x40.BroadcastsInDim S16384x40x1 (![0, 1] : Fin 2 → Fin S16384x40x1.rank)
  bcast_S_S16384x40x1 : S_.BroadcastsInDim S16384x40x1 (![] : Fin 0 → Fin S16384x40x1.rank)
  bcast_S40x16_S1x40x16_1_2 : S40x16.BroadcastsInDim S1x40x16 (![1, 2] : Fin 2 → Fin S1x40x16.rank)
  bcast_S16384x40x1_S16384x40x16_0_1_2 : S16384x40x1.BroadcastsInDim S16384x40x16 (![0, 1, 2] : Fin 3 → Fin S16384x40x16.rank)
  bcast_S1x40x16_S16384x40x16_0_1_2 : S1x40x16.BroadcastsInDim S16384x40x16 (![0, 1, 2] : Fin 3 → Fin S16384x40x16.rank)
  shapeCasts_S16384x40x16_S16384x640 : S16384x40x16.ShapeCasts S16384x640
  concatenates_S16384x1024_S16384x1024_S16384x640_S16384x2688_d1 : Shape.Concatenates [S16384x1024, S16384x1024, S16384x640] S16384x2688 1
  transposes_S4096x2688_S2688x4096_1_0 : S4096x2688.Transposes [1, 0] S2688x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  transposes_S1x4096_S4096x1_1_0 : S1x4096.Transposes [1, 0] S4096x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x2688_S2688x4096_S16384x4096_1_0_0_1_n_n_wf : DotDims.WF S16384x2688 S2688x4096 S16384x4096 [1] [0] [0] [1] [] []
  dot_S16384x4096_S4096x1_S16384x1_1_0_0_1_n_n_wf : DotDims.WF S16384x4096 S4096x1 S16384x1 [1] [0] [0] [1] [] []

variable [Facts₀]

def dot_S16384x2688_S2688x4096_S16384x4096_1_0_0_1_n_n : DotDims S16384x2688 S2688x4096 S16384x4096 where
  lhsContracting := [1]
  rhsContracting := [0]
  lhsNonContracting := [0]
  rhsNonContracting := [1]
  lhsBatch := []
  rhsBatch := []
  wf := dot_S16384x2688_S2688x4096_S16384x4096_1_0_0_1_n_n_wf
def dot_S16384x4096_S4096x1_S16384x1_1_0_0_1_n_n : DotDims S16384x4096 S4096x1 S16384x1 where
  lhsContracting := [1]
  rhsContracting := [0]
  lhsNonContracting := [0]
  rhsNonContracting := [1]
  lhsBatch := []
  rhsBatch := []
  wf := dot_S16384x4096_S4096x1_S16384x1_1_0_0_1_n_n_wf

class Facts : Prop extends Facts₀ where

variable [Facts]
-- ==== Proof.MlpSpec.lean ====
/-
  A two-layer network over a batch of rows, as ONE function of its argument arrays, and the three small laws that join
  two ways of writing it.

  Row b of the batch has two embedding vectors of 1024 numbers each, ei(b, ·) and ea(b, ·), and forty integer mask
  entries mask(b, f). Feature f has two embedding tables of sixteen numbers, on(f, ·) and off(f, ·); the row uses the
  "on" entries where mask(b, f) is positive (read signed) and the "off" entries otherwise. Laid side by side these are
  640 numbers feat(b, j), j = 16 f + e. The row's 2688 inputs (ei, ea, feat) meet the first layer's weights W1(n, ·),
  4096 rows of 2688, with a bias b1(n) and a clamp at zero from below:

      hidden(b, n) = max (Σ_k ei(b,k) W1(n,k) + Σ_k ea(b,k) W1(n,1024+k) + Σ_j feat(b,j) W1(n,2048+j) + b1(n), 0),

  and the second layer is one row of 4096 weights and one bias:

      out(b) = Σ_n hidden(b,n) W2(0,n) + b2(0).

  Everything is on the extended reals. The laws used are only: a sum over 2688 consecutive positions is the sum of its
  three stretches (no finiteness needed: addition of extended reals is commutative and associative); a sum against a
  row of a 0/1 selector matrix picks one term; and a one-bit test, widened to an integer, read as a number and compared
  with one half, comes back as itself.
-/
import Idealize.ShloMosaic.Lib.ValueIdx
import Idealize.ShloMosaic.Lib.IdealHost
import Idealize.ShloMosaic.PureOps.Ideal.Laws

noncomputable section

open scoped BigOperators

namespace Cert.Mlp

open Idealize.ShloMosaic Idealize.ShloMosaic.ValueIdx

/-! ## Sums -/

/-- A sum over a + b + c consecutive positions is the sum of the three stretches. -/
theorem sum_split3 {M : Type*} [AddCommMonoid M] (a b c : ℕ) (f : Fin (a + b + c) → M) :
    ∑ k, f k = (∑ i : Fin a, f (Fin.castAdd c (Fin.castAdd b i)) + ∑ i : Fin b, f (Fin.castAdd c (Fin.natAdd a i)))
      + ∑ i : Fin c, f (Fin.natAdd (a + b) i) := by
  rw [Fin.sum_univ_add, Fin.sum_univ_add]

/-- The same at 2688 = 1024 + 1024 + 640, the positions named by their numbers. -/
theorem sum_three {M : Type*} [AddCommMonoid M] (f : Fin 2688 → M) :
    ∑ k : Fin 2688, f k
      = (∑ k : Fin 1024, f ⟨k.val, by omega⟩ + ∑ k : Fin 1024, f ⟨1024 + k.val, by omega⟩)
        + ∑ j : Fin 640, f ⟨2048 + j.val, by omega⟩ :=
  sum_split3 1024 1024 640 f

/-- A sum against a row of a 0/1 selector picks the selected term. -/
theorem sum_selector (c : Fin 40 → EReal) (g : Fin 40) :
    ∑ f : Fin 40, c f * (if f = g then (1 : EReal) else 0) = c g := by
  simp [mul_ite, Finset.sum_ite_eq']

/-! ## A one-bit test as a number -/

/-- The number a one-bit test becomes when it is widened to a 32-bit integer and read as a signed integer: 0 or 1. -/
def bitVal (c : BitVec 1) : EReal := (((c.setWidth 32).toInt : ℝ) : EReal)

theorem bit_cases (c : BitVec 1) : c = 0#1 ∨ c = 1#1 := by
  revert c; decide

theorem bitVal_zero : bitVal 0#1 = 0 := by
  have h : ((0#1 : BitVec 1).setWidth 32).toInt = 0 := by decide
  rw [bitVal, h]; simp

theorem bitVal_one : bitVal 1#1 = 1 := by
  have h : ((1#1 : BitVec 1).setWidth 32).toInt = 1 := by decide
  rw [bitVal, h]; simp

/-- The f32 word 0x3F000000 is one half. -/
theorem ofBits_half_f32 : Ideal.ofBits .f32 0x3F000000#32 = (((1 : ℝ) / 2 : ℝ) : EReal) := by
  simp [Ideal.ofBits, Ideal.ieee, -EReal.coe_mul]; norm_num

/-- Read as a number and compared with one half, a one-bit test comes back as itself: 0 is below one half, 1 above. -/
theorem cmp_bitVal_half (c : BitVec 1) :
    Ideal.cmp .ogt (bitVal c) (Ideal.ofBits .f32 0x3F000000#32) = c := by
  rw [ofBits_half_f32]
  rcases bit_cases c with rfl | rfl
  · rw [bitVal_zero]
    have h : ¬ ((((1 : ℝ) / 2 : ℝ) : EReal) < 0) := by
      rw [← EReal.coe_zero, EReal.coe_lt_coe_iff]; norm_num
    show BitVec.ofBool (decide ((((1 : ℝ) / 2 : ℝ) : EReal) < 0)) = 0#1
    rw [decide_eq_false h]; rfl
  · rw [bitVal_one]
    have h : ((((1 : ℝ) / 2 : ℝ) : EReal) < 1) := by
      rw [← EReal.coe_one, EReal.coe_lt_coe_iff]; norm_num
    show BitVec.ofBool (decide ((((1 : ℝ) / 2 : ℝ) : EReal) < 1)) = 1#1
    rw [decide_eq_true h]; rfl

/-! ## The network -/

/-- Position j of the 640 feature numbers belongs to feature j / 16 … -/
abbrev featRow (j : Fin 640) : Fin 40 := ⟨j.val / 16, by omega⟩
/-- … and is that feature's entry j % 16. -/
abbrev featCol (j : Fin 640) : Fin 16 := ⟨j.val % 16, by omega⟩

/-- Row b's feature number j: from the "on" table where the row's mask entry for the feature is positive. -/
def feat (mask : IVec ⟨2, ![16384, 40]⟩ 32) (on off : FVec Ideal ⟨2, ![40, 16]⟩ .f32) (b : Fin 16384) (j : Fin 640) : EReal :=
  Scalar.select (IntOp.cmpi .sgt (mask (ix2 b (featRow j))) 0#32)
    (on (ix2 (featRow j) (featCol j))) (off (ix2 (featRow j) (featCol j)))

/-- The first layer at row b, unit n: three stretches of one weight row, a bias, a clamp at zero. -/
def hidden (ei ea : FVec Ideal ⟨2, ![16384, 1024]⟩ .f32) (mask : IVec ⟨2, ![16384, 40]⟩ 32)
    (on off : FVec Ideal ⟨2, ![40, 16]⟩ .f32) (W1 : FVec Ideal ⟨2, ![4096, 2688]⟩ .f32) (b1 : FVec Ideal ⟨1, ![4096]⟩ .f32)
    (b : Fin 16384) (n : Fin 4096) : EReal :=
  max ((((∑ k : Fin 1024, ei (ix2 b k) * W1 (ix2 n (⟨k.val, by omega⟩ : Fin 2688)))
        + ∑ k : Fin 1024, ea (ix2 b k) * W1 (ix2 n (⟨1024 + k.val, by omega⟩ : Fin 2688)))
        + ∑ j : Fin 640, feat mask on off b j * W1 (ix2 n (⟨2048 + j.val, by omega⟩ : Fin 2688)))
      + b1 (ix1 n)) (Ideal.ofBits .f32 0x00000000#32)

/-- THE RESULT: entry (b, 0) is the second layer over row b's hidden units, plus its bias. -/
def G (ei ea : FVec Ideal ⟨2, ![16384, 1024]⟩ .f32) (mask : IVec ⟨2, ![16384, 40]⟩ 32)
    (on off : FVec Ideal ⟨2, ![40, 16]⟩ .f32) (W1 : FVec Ideal ⟨2, ![4096, 2688]⟩ .f32) (b1 : FVec Ideal ⟨1, ![4096]⟩ .f32)
    (W2 : FVec Ideal ⟨2, ![1, 4096]⟩ .f32) (b2 : FVec Ideal ⟨1, ![1]⟩ .f32) : FVec Ideal ⟨2, ![16384, 1]⟩ .f32 :=
  fun i => (∑ n : Fin 4096, hidden ei ea mask on off W1 b1 (i 0) n * W2 (ix2 (0 : Fin 1) n)) + b2 (ix1 (0 : Fin 1))

end Cert.Mlp

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«133938_j59820304499359_2_alg».proof.Proof.LibPlainDot
import proofs.«133938_j59820304499359_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.LibLaneOps.lean ====
/-
  Sums along the lanes of a matrix, and two casts, read at an index.

  A float sum of an `[a, b]` matrix along its second axis is a vector of length `a` whose entry `p` is, at the exact
  values, the sum over the lane coordinate `q` of the matrix's entry `(p, q)`.  A `[1, 1, a, b]` array viewed as an
  `[a, b]` matrix keeps its row-major order, so the matrix's entry `(p, q)` is the array's entry `(0, 0, p, q)`.  A
  sum over every index of an `[a, 1, 1]` array is the sum over its leading coordinate.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLaneOps

open Idealize.ShloMosaic Idealize.ShloMosaic.ValueIdx

/-- The source index over row `p` with lane `q` inserted is `(p, q)`. -/
theorem lift_lane {a b : ℕ} (h : (⟨2, ![a, b]⟩ : Shape).Reduces [1] ⟨1, ![a]⟩) (p : Fin a) (q : Fin b) :
    h.lift (ix1 p) q = ix2 p q := by
  funext ax
  match ax with
  | ⟨0, _⟩ => rfl
  | ⟨1, _⟩ => rfl

/-- A float sum along the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) :=
  (Ideal.multiReduction_add_single src acc h hφ hacc (ix1 p)).trans
    (Finset.sum_congr rfl fun q _ => congrArg src (lift_lane h p q))

/-- A `[1, 1, a, b]` array cast to `[a, b]` reads, at `(p, q)`, the operand at `(0, 0, p, q)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An index of a rank-3 shape is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of an `[a, 1, 1]` shape is the sum over the leading coordinate. -/
theorem sum_idx3_lead {M : Type*} [AddCommMonoid M] {a : Nat} (f : (⟨3, ![a, 1, 1]⟩ : Shape).Idx → M) :
    ∑ i, f i = ∑ p : Fin a, f (ix3 p (0 : Fin 1) (0 : Fin 1)) := by
  rw [← Equiv.sum_comp (idxEquiv3 (n0 := a) (n1 := 1) (n2 := 1)).symm f, Fintype.sum_prod_type]
  refine Finset.sum_congr rfl fun p _ => ?_
  rw [Fintype.sum_prod_type, Fin.sum_univ_one, Fin.sum_univ_one]
  rfl

end Cert.LibLaneOps

end
-- ==== Proof.MlpBlock.lean ====
/-
  What the kernel's body computes for one block of 512 batch rows, read at an index, over arbitrary operand vectors.

  The body forms three products of a block of rows with stretches of the first layer's weight rows (each a sum over
  the stretch, started from zero), adds them, adds the bias row, clamps at zero, multiplies by the second layer's weight
  row and sums along the lanes, and adds the second bias. The 640 feature numbers of a row come from a select between two
  table rows, driven by a test "number above one half" on the product of the row's 0/1 mask numbers with a selector
  matrix. At the exact values the changes of float format are the identity, so each product is a plain sum.
-/
import proofs.«133938_j59820304499359_2_alg».proof.Proof.Gen.KernelIdeal.Skeleton
import proofs.«133938_j59820304499359_2_alg».proof.Proof.MlpSpec
import proofs.«133938_j59820304499359_2_alg».proof.Proof.LibZeroAccDots
import proofs.«133938_j59820304499359_2_alg».proof.Proof.LibLaneOps
import Idealize.ShloMosaic.Lib.Pipeline.Value
import Idealize.ShloMosaic.Lib.ValueIdx
import Idealize.ShloMosaic.Lib.ValueLayout

noncomputable section

open scoped BigOperators

namespace Cert.Mlp

open Cert.KernelIdeal Cert.KernelIdeal.Gen Idealize.ShloMosaic Idealize.ShloMosaic.ValueIdx

/-! ## Products of a block with weight rows -/

/-- 512 rows of 1024 numbers against 4096 weight rows of 1024, summed from zero: entry (r, n) is the sum along both rows. -/
theorem rowsTimesRows1024 (x : FVec Ideal S512x1024 .f32) (w : FVec Ideal S4096x1024 .bf16) (r : Fin 512) (n : Fin 4096) :
    matmul (F := Ideal) dot_S512x1024_S4096x1024_S512x4096_1_1_0_0_n_n none (truncf .bf16 x bitsLt_bf16_f32)
        (shapeCast S4096x1024 w shapeCasts_S4096x1024_S4096x1024) (constant S512x4096 .f32 0x00000000#32) (ix2 r n)
      = ∑ k : Fin 1024, x (ix2 r k) * w (ix2 n k) := by
  rw [shapeCast_self]
  exact Cert.ZeroAccDots.rows_rows dot_S512x1024_S4096x1024_S512x4096_1_1_0_0_n_n rfl rfl rfl rfl rfl rfl rfl rfl none
    (truncf .bf16 x bitsLt_bf16_f32) w r n

/-- The same over a stretch of 640. -/
theorem rowsTimesRows640 (x : FVec Ideal S512x640 .f32) (w : FVec Ideal S4096x640 .bf16) (r : Fin 512) (n : Fin 4096) :
    matmul (F := Ideal) dot_S512x640_S4096x640_S512x4096_1_1_0_0_n_n none (truncf .bf16 x bitsLt_bf16_f32)
        (shapeCast S4096x640 w shapeCasts_S4096x640_S4096x640) (constant S512x4096 .f32 0x00000000#32) (ix2 r n)
      = ∑ j : Fin 640, x (ix2 r j) * w (ix2 n j) := by
  rw [shapeCast_self]
  exact Cert.ZeroAccDots.rows_rows dot_S512x640_S4096x640_S512x4096_1_1_0_0_n_n rfl rfl rfl rfl rfl rfl rfl rfl none
    (truncf .bf16 x bitsLt_bf16_f32) w r n

/-- The mask tests of a block, read as numbers 0 / 1, against a 40 x 640 matrix: entry (r, j) is the sum over the
    forty features of the row's mask number times the matrix's entry. -/
theorem maskTimesMatrix (v0 : IVec S512x40 32) (v6 : FVec Ideal S40x640 .bf16) (r : Fin 512) (j : Fin 640) :
    matmul (F := Ideal) dot_S512x40_S40x640_S512x640_1_0_0_1_n_n none
        (truncf .bf16 (sitofp (F := Ideal) .f32 (extui 32 (cmpi .sgt v0 (broadcast S512x40 0#32)) natLt_1_32)) bitsLt_bf16_f32)
        (shapeCast S40x640 v6 shapeCasts_S40x640_S40x640) (constant S512x640 .f32 0x00000000#32) (ix2 r j)
      = ∑ f : Fin 40, bitVal (IntOp.cmpi .sgt (v0 (ix2 r f)) 0#32) * v6 (ix2 f j) := by
  rw [shapeCast_self]
  exact Cert.ZeroAccDots.rows_columns dot_S512x40_S40x640_S512x640_1_0_0_1_n_n rfl rfl rfl rfl rfl rfl rfl rfl none
    (truncf .bf16 (sitofp (F := Ideal) .f32 (extui 32 (cmpi .sgt v0 (broadcast S512x40 0#32)) natLt_1_32)) bitsLt_bf16_f32) v6 r j

/-! ## Rows and columns re-laid -/

/-- A vector of 640 viewed as one row and repeated down 512 rows reads, at (r, j), its entry j. -/
theorem rowOf640 (v : FVec Ideal S640 .f32) (r : Fin 512) (j : Fin 640) :
    broadcastTo S512x640 (shapeCast S1x640 (shapeCast S1x640 (shapeCast S640 v shapeCasts_S640_S640) shapeCasts_S640_S1x640)
        shapeCasts_S1x640_S1x640) broadcasts_S1x640_S512x640 (ix2 r j) = v (ix1 j) :=
  (broadcastTo_1b_ab_apply _ _ r j).trans ((congrFun (shapeCast_self _ _) _).trans
    ((shapeCast_a_1a_apply _ _ (0 : Fin 1) j).trans (congrFun (shapeCast_self v _) _)))

/-- A vector of 4096 viewed as one row and repeated down 512 rows reads, at (r, n), its entry n. -/
theorem rowOf4096 (v : FVec Ideal S4096 .f32) (r : Fin 512) (n : Fin 4096) :
    broadcastTo S512x4096 (shapeCast S1x4096 v shapeCasts_S4096_S1x4096) broadcasts_S1x4096_S512x4096 (ix2 r n) = v (ix1 n) :=
  (broadcastTo_1b_ab_apply _ _ r n).trans (shapeCast_a_1a_apply _ _ (0 : Fin 1) n)

/-- The same with the vector first cast to its own shape. -/
theorem rowOf4096' (v : FVec Ideal S4096 .f32) (r : Fin 512) (n : Fin 4096) :
    broadcastTo S512x4096 (shapeCast S1x4096 (shapeCast S4096 v shapeCasts_S4096_S4096) shapeCasts_S4096_S1x4096)
        broadcasts_S1x4096_S512x4096 (ix2 r n) = v (ix1 n) :=
  (broadcastTo_1b_ab_apply _ _ r n).trans ((shapeCast_a_1a_apply _ _ (0 : Fin 1) n).trans (congrFun (shapeCast_self v _) _))

/-- A single number viewed as a 1 x 1 matrix and repeated down 512 rows reads that number. -/
theorem oneOf1 (v : FVec Ideal S1 .f32) (r : Fin 512) (u : Fin 1) :
    broadcastTo S512x1 (shapeCast S1x1 v shapeCasts_S1_S1x1) broadcasts_S1x1_S512x1 (ix2 r u) = v (ix1 u) :=
  (broadcastTo_1b_ab_apply _ _ r u).trans (shapeCast_a_1a_apply _ _ (0 : Fin 1) u)

/-- A vector of 512 viewed as a column reads, at (r, u), its entry r. -/
theorem columnOf512 (v : FVec Ideal S512 .f32) (r : Fin 512) (u : Fin 1) :
    shapeCast S512x1 v shapeCasts_S512_S512x1 (ix2 r u) = v (ix1 r) :=
  shapeCast_apply v _ _ _ (by
    rw [Shape.rowMajor_val_one, Shape.rowMajor_val_two]
    show r.val = r.val * 1 + u.val
    omega)

/-- A select whose three operands are equal to three others. -/
theorem select_congr {α : Type} {c c' : BitVec 1} {a a' b b' : α} (hc : c = c') (ha : a = a') (hb : b = b') :
    Scalar.select c a b = Scalar.select c' a' b' := by
  subst hc ha hb; rfl

/-! ## The body's three values at an index -/

/-- The two embedding products, added: at (r, n) the two sums along the weight rows' first two stretches. -/
theorem pay2_apply (v23 v25 : FVec Ideal S512x1024 .f32) (v27 v30 : FVec Ideal S4096x1024 .bf16) (r : Fin 512) (n : Fin 4096) :
    k0_pay2 (F := Ideal) v23 v25 v27 v30 (ix2 r n)
      = (∑ k : Fin 1024, v23 (ix2 r k) * v27 (ix2 n k)) + ∑ k : Fin 1024, v25 (ix2 r k) * v30 (ix2 n k) := by
  unfold k0_pay2
  exact congrArg₂ (· + ·) (rowsTimesRows1024 v23 v27 r n) (rowsTimesRows1024 v25 v30 r n)

/-- The feature product: at (r, n) the sum over the 640 feature positions of the selected table entry times the
    weight; the selection is "the mask numbers against the matrix, above one half". -/
theorem pay3_apply (v0 : IVec S512x40 32) (v6 : FVec Ideal S40x640 .bf16) (v11 v14 : FVec Ideal S640 .f32)
    (v34 : FVec Ideal S4096x640 .bf16) (r : Fin 512) (n : Fin 4096) :
    k0_pay3 (F := Ideal) v0 v6 v11 v14 v34 (ix2 r n)
      = ∑ j : Fin 640, Scalar.select
            (Ideal.cmp .ogt (∑ f : Fin 40, bitVal (IntOp.cmpi .sgt (v0 (ix2 r f)) 0#32) * v6 (ix2 f j)) (Ideal.ofBits .f32 0x3F000000#32))
            (v11 (ix1 j)) (v14 (ix1 j)) * v34 (ix2 n j) := by
  unfold k0_pay3
  refine (rowsTimesRows640 _ v34 r n).trans (Finset.sum_congr rfl fun j _ => ?_)
  refine congrArg (· * v34 (ix2 n j)) ?_
  exact select_congr (congrArg (Ideal.cmp .ogt · (Ideal.ofBits .f32 0x3F000000#32)) (maskTimesMatrix v0 v6 r j))
    (rowOf640 v11 r j) (rowOf640 v14 r j)

/-- The rest of the body: at (r, u) the sum over the 4096 hidden units of the clamped, biased sum of the two earlier
    values times the second layer's weight, plus the second bias. -/
theorem pay1_apply (v33 v36 : FVec Ideal S512x4096 .f32) (v38 v44 : FVec Ideal S4096 .f32) (v51 : FVec Ideal S1 .f32)
    (r : Fin 512) (u : Fin 1) :
    k0_pay1 (F := Ideal) v33 v36 v38 v44 v51 (ix2 r u)
      = (∑ n : Fin 4096, max ((v33 (ix2 r n) + v36 (ix2 r n)) + v38 (ix1 n)) (Ideal.ofBits .f32 0x00000000#32) * v44 (ix1 n))
        + v51 (ix1 u) := by
  unfold k0_pay1
  refine congrArg₂ (· + ·) ((columnOf512 _ r u).trans
    ((Cert.LibLaneOps.multiReduction_add_lanes_apply _ _ _ _ _ r).trans (Finset.sum_congr rfl fun n _ => ?_))) (oneOf1 v51 r u)
  exact congrArg₂ (· * ·)
    (congrArg (max · (Ideal.ofBits .f32 0x00000000#32)) (congrArg ((v33 (ix2 r n) + v36 (ix2 r n)) + ·) (rowOf4096 v38 r n)))
    (rowOf4096' v44 r n)

end Cert.Mlp

end
-- ==== Proof.MlpHost.lean ====
/-
  The kernel's operands that the host program writes before the launch, read at an index.

  Five of the kernel's ten operand arrays are not arguments but arrays the host computes from them: the two feature
  tables laid flat (entry j of the flat table is entry (j / 16, j % 16) of the 40 x 16 table), the first layer's weights
  in a narrower float format (the same numbers at the exact values), the second layer's one weight row as a vector,
  and a 40 x 640 selector matrix: the 40 x 40 identity with every column repeated sixteen times, so that its entry
  (f, j) is one when f = j / 16 and zero otherwise.
-/
import proofs.«133938_j59820304499359_2_alg».proof.Proof.Gen.KernelIdeal.Frame
import proofs.«133938_j59820304499359_2_alg».proof.Proof.MlpSpec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.Mlp

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A 40 x 16 table laid flat in row-major order: entry j of the flat table is entry (j / 16, j % 16). -/
theorem flatten40x16_apply (x : S40x16.Idx → EReal) (j : Fin 640) :
    shapeCast S640 x shapeCasts_S40x16_S640 (ix1 j) = x (ix2 (featRow j) (featCol j)) :=
  shapeCast_apply x _ _ _ (by
    rw [Shape.rowMajor_val_two, Shape.rowMajor_val_one]
    show (j.val / 16) * 16 + j.val % 16 = j.val
    omega)

/-- The "on" table laid flat: entry j is the table's entry (j / 16, j % 16). -/
theorem onFlat_apply (c : Dev nD) (j : Fin 640) :
    (V m c main_v0 : S640.Idx → EReal) (ix1 j)
      = (m ((c : Thread nD τ).loc main_arg3) : S40x16.Idx → EReal) (ix2 (featRow j) (featCol j)) := by
  have e : (V m c main_v0 : S640.Idx → EReal)
      = shapeCast S640 (m ((c : Thread nD τ).loc main_arg3)) shapeCasts_S40x16_S640 := by
    dsimp only [Gen.V, Gen.hostOps0]; after_results; rfl
  rw [e]
  exact flatten40x16_apply _ j

/-- The "off" table laid flat, likewise. -/
theorem offFlat_apply (c : Dev nD) (j : Fin 640) :
    (V m c main_v1 : S640.Idx → EReal) (ix1 j)
      = (m ((c : Thread nD τ).loc main_arg4) : S40x16.Idx → EReal) (ix2 (featRow j) (featCol j)) := by
  have e : (V m c main_v1 : S640.Idx → EReal)
      = shapeCast S640 (m ((c : Thread nD τ).loc main_arg4)) shapeCasts_S40x16_S640 := by
    dsimp only [Gen.V, Gen.hostOps0]; after_results; rfl
  rw [e]
  exact flatten40x16_apply _ j

/-- The first layer's weights in the narrower format are the same numbers. -/
theorem w1_eq (c : Dev nD) :
    (V m c main_v10 : S4096x2688.Idx → EReal) = (m ((c : Thread nD τ).loc main_arg5) : S4096x2688.Idx → EReal) := by
  dsimp only [Gen.V, Gen.hostOps0]; after_results; rfl

/-- The second layer's weight row as a vector: entry n is the row's entry (0, n). -/
theorem w2Flat_apply (c : Dev nD) (n : Fin 4096) :
    (V m c main_v11 : S4096.Idx → EReal) (ix1 n)
      = (m ((c : Thread nD τ).loc main_arg7) : S1x4096.Idx → EReal) (ix2 (0 : Fin 1) n) := by
  have e : (V m c main_v11 : S4096.Idx → EReal)
      = shapeCast S4096 (m ((c : Thread nD τ).loc main_arg7)) shapeCasts_S1x4096_S4096 := by
    dsimp only [Gen.V, Gen.hostOps0]; after_results; rfl
  rw [e]
  exact shapeCast_1a_a_apply _ _ n

/-- The test "row number plus zero equals column number" on numbers below forty is the test "equal". -/
theorem eye_bit (f g : Fin 40) :
    IntOp.cmpi .eq (IntOp.addi (BitVec.ofNat 32 f.val) 0#32) (BitVec.ofNat 32 g.val) = if f = g then 1#1 else 0#1 := by
  revert f g; decide +kernel

/-- The selector matrix: entry (f, j) is one when position j belongs to feature f, zero otherwise. -/
theorem selector_apply (c : Dev nD) (f : Fin 40) (j : Fin 640) :
    (V m c main_v9 : S40x640.Idx → EReal) (ix2 f j) = if f = featRow j then (1 : EReal) else 0 := by
  have e : (V m c main_v9 : S40x640.Idx → EReal)
      = shapeCast S40x640 (broadcastInDim S40x40x16 ![0, 1] bcast_S40x40_S40x40x16_0_1
          (uitofp (F := Ideal) .bf16 (cmpi .eq (addi (iotaInDim S40x40 32 0)
            (broadcastInDim S40x40 ![] bcast_S_S40x40 (constantI S_ 32 0#32))) (iotaInDim S40x40 32 1))))
          shapeCasts_S40x40x16_S40x640 := by
    dsimp only [Gen.V, Gen.hostOps0]; after_results; rfl
  rw [e]
  refine (shapeCast_apply _ _ (ix2 f j) (ix3 f (featRow j) (featCol j)) (by
    rw [Shape.rowMajor_val_three, Shape.rowMajor_val_two]
    show (f.val * 40 + j.val / 16) * 16 + j.val % 16 = f.val * 640 + j.val
    omega)).trans ?_
  refine (broadcastInDim_apply _ bcast_S40x40_S40x40x16_0_1 _ (ix3 f (featRow j) (featCol j)) (ix2 f (featRow j))
    (fun a => match a with
      | ⟨0, _⟩ => by show f.val = if (40 : Nat) = 1 then 0 else f.val; rw [if_neg (by decide)]
      | ⟨1, _⟩ => by show j.val / 16 = if (40 : Nat) = 1 then 0 else j.val / 16; rw [if_neg (by decide)])).trans ?_
  have hz : (broadcastInDim S40x40 ![] bcast_S_S40x40 (constantI S_ 32 0#32)) (ix2 f (featRow j)) = 0#32 :=
    broadcastInDim_scalar_apply _ _ _
  show (((IntOp.cmpi .eq (IntOp.addi (BitVec.ofNat 32 f.val)
      ((broadcastInDim S40x40 ![] bcast_S_S40x40 (constantI S_ 32 0#32)) (ix2 f (featRow j))))
      (BitVec.ofNat 32 (featRow j).val)).toNat : ℝ) : EReal) = _
  rw [hz, eye_bit f (featRow j)]
  by_cases h : f = featRow j <;> simp [h]

end Cert.Mlp

end
-- ==== Proof.MlpKernel.lean ====
/-
  The kernel's result array after the run is the network of MlpSpec.lean, applied to the argument arrays.

  Grid point t handles batch rows 512 t … 512 t + 511: it is handed those rows of the two embedding arrays and of the
  mask, and the whole of the seven other operands (the flat tables, the selector matrix, the weights and the biases),
  and it writes rows 512 t … 512 t + 511 of the one-column result. The 32 blocks tile the 16384 rows, so it is enough
  to show that what point t writes is those rows of the network's result: the body's value at row r of its block is the
  network's value at row 512 t + r, because every operand entry the body reads is the argument entry the network reads
  (the selector matrix turns the sum over features into the one mask test of the position's feature, and that test
  survives being read as a number and compared with one half).
-/
import proofs.«133938_j59820304499359_2_alg».proof.Proof.Gen.KernelIdeal.Frame
import proofs.«133938_j59820304499359_2_alg».proof.Proof.MlpSpec
import proofs.«133938_j59820304499359_2_alg».proof.Proof.MlpBlock
import proofs.«133938_j59820304499359_2_alg».proof.Proof.MlpHost
import Idealize.ShloMosaic.Lib.Pipeline.Value
import Idealize.ShloMosaic.Lib.ValueIdx

set_option maxRecDepth 16384

noncomputable section

open scoped BigOperators

namespace Cert.Mlp

open Cert.KernelIdeal Cert.KernelIdeal.Gen Idealize.ShloMosaic Idealize.ShloMosaic.TcCoe Idealize.SL.Sem
open Idealize.ShloMosaic.ValueIdx
open Idealize.ShloMosaic.Pipeline (Dat)

/-! ## The body's block over arbitrary operands -/

theorem zeros2 : (![0, 0] : Fin 2 → Nat) = fun _ => 0 := funext fun a => by fin_cases a <;> rfl
theorem zeros1 : (![0] : Fin 1 → Nat) = fun _ => 0 := funext fun a => by fin_cases a; rfl

/-- The first stretch of the weight rows, as the body loads it: entry (n, k) is the weights' entry (n, k). -/
theorem ldW1_first (x6 : Vec Ideal S4096x2688 .bf16) (n : Fin 4096) (k : Fin 1024) :
    View.ld x6 r0_4 (ix2 n k) = x6 (ix2 n (⟨k.val, by omega⟩ : Fin 2688)) :=
  congrArg x6 (funext fun a => Fin.ext (by
    match a with
    | ⟨0, _⟩ => show 0 + 1 * n.val = n.val; omega
    | ⟨1, _⟩ => show 0 + 1 * k.val = k.val; omega))

/-- The second stretch: entry (n, k) is the weights' entry (n, 1024 + k). -/
theorem ldW1_second (x6 : Vec Ideal S4096x2688 .bf16) (n : Fin 4096) (k : Fin 1024) :
    View.ld x6 r0_5 (ix2 n k) = x6 (ix2 n (⟨1024 + k.val, by omega⟩ : Fin 2688)) :=
  congrArg x6 (funext fun a => Fin.ext (by
    match a with
    | ⟨0, _⟩ => show 0 + 1 * n.val = n.val; omega
    | ⟨1, _⟩ => show 1024 + 1 * k.val = 1024 + k.val; omega))

/-- The third stretch: entry (n, j) is the weights' entry (n, 2048 + j). -/
theorem ldW1_third (x6 : Vec Ideal S4096x2688 .bf16) (n : Fin 4096) (j : Fin 640) :
    View.ld x6 r0_6 (ix2 n j) = x6 (ix2 n (⟨2048 + j.val, by omega⟩ : Fin 2688)) :=
  congrArg x6 (funext fun a => Fin.ext (by
    match a with
    | ⟨0, _⟩ => show 0 + 1 * n.val = n.val; omega
    | ⟨1, _⟩ => show 2048 + 1 * j.val = 2048 + j.val; omega))

/-- WHAT THE BODY LEAVES at row r of its block, when its operands hold what the network reads for batch row R: the
    network's result at row R. -/
theorem block_row (x0 x1 : Vec Ideal S512x1024 .f32) (x2 : Vec Ideal S512x40 .i32) (x3 x4 : Vec Ideal S640 .f32)
    (x5 : Vec Ideal S40x640 .bf16) (x6 : Vec Ideal S4096x2688 .bf16) (x7 x8 : Vec Ideal S4096 .f32) (x9 : Vec Ideal S1 .f32)
    (ei ea : FVec Ideal ⟨2, ![16384, 1024]⟩ .f32) (mask : IVec ⟨2, ![16384, 40]⟩ 32)
    (on off : FVec Ideal ⟨2, ![40, 16]⟩ .f32) (W1 : FVec Ideal ⟨2, ![4096, 2688]⟩ .f32) (b1 : FVec Ideal ⟨1, ![4096]⟩ .f32)
    (W2 : FVec Ideal ⟨2, ![1, 4096]⟩ .f32) (b2 : FVec Ideal ⟨1, ![1]⟩ .f32) (R : Fin 16384) (r : Fin 512)
    (h0 : ∀ k, x0 (ix2 r k) = ei (ix2 R k)) (h1 : ∀ k, x1 (ix2 r k) = ea (ix2 R k))
    (h2 : ∀ f, x2 (ix2 r f) = mask (ix2 R f))
    (h3 : ∀ j, x3 (ix1 j) = on (ix2 (featRow j) (featCol j))) (h4 : ∀ j, x4 (ix1 j) = off (ix2 (featRow j) (featCol j)))
    (h5 : ∀ f j, x5 (ix2 f j) = if f = featRow j then (1 : EReal) else 0)
    (h6 : ∀ n k, x6 (ix2 n k) = W1 (ix2 n k)) (h7 : ∀ n, x7 (ix1 n) = b1 (ix1 n))
    (h8 : ∀ n, x8 (ix1 n) = W2 (ix2 (0 : Fin 1) n)) (h9 : x9 (ix1 (0 : Fin 1)) = b2 (ix1 (0 : Fin 1))) :
    out0_10 (F := Ideal) x0 x1 x2 x3 x4 x5 x6 x7 x8 x9 (ix2 r (0 : Fin 1))
      = (∑ n : Fin 4096, hidden ei ea mask on off W1 b1 R n * W2 (ix2 (0 : Fin 1) n)) + b2 (ix1 (0 : Fin 1)) := by
  unfold out0_10
  rw [View.canon_unit_zero zeros2]
  refine (pay1_apply _ _ _ _ _ r (0 : Fin 1)).trans ?_
  have l7 : ∀ n : Fin 4096, View.ld x7 r0_7 (ix1 n) = x7 (ix1 n) := fun n =>
    congrFun (View.ld_unit_zero (S := S4096) zeros1 _ x7) _
  have l8 : ∀ n : Fin 4096, View.ld x8 r0_7 (ix1 n) = x8 (ix1 n) := fun n =>
    congrFun (View.ld_unit_zero (S := S4096) zeros1 _ x8) _
  have l9 : View.ld x9 r0_8 (ix1 (0 : Fin 1)) = x9 (ix1 (0 : Fin 1)) :=
    congrFun (View.ld_unit_zero (S := S1) zeros1 _ x9) _
  simp only [View.ld_unit_zero (S := S512x1024) zeros2, View.ld_unit_zero (S := S512x40) zeros2,
    View.ld_unit_zero (S := S40x640) zeros2, View.ld_unit_zero (S := S640) zeros1, l7, l8, l9]
  rw [h9]
  refine congrArg (· + b2 (ix1 (0 : Fin 1))) (Finset.sum_congr rfl fun n _ => ?_)
  rw [pay2_apply, pay3_apply, h7, h8]
  have w1a : ∀ k : Fin 1024, View.ld x6 r0_4 (ix2 n k) = W1 (ix2 n (⟨k.val, by omega⟩ : Fin 2688)) := fun k =>
    (ldW1_first x6 n k).trans (h6 n _)
  have w1b : ∀ k : Fin 1024, View.ld x6 r0_5 (ix2 n k) = W1 (ix2 n (⟨1024 + k.val, by omega⟩ : Fin 2688)) := fun k =>
    (ldW1_second x6 n k).trans (h6 n _)
  have w1c : ∀ j : Fin 640, View.ld x6 r0_6 (ix2 n j) = W1 (ix2 n (⟨2048 + j.val, by omega⟩ : Fin 2688)) := fun j =>
    (ldW1_third x6 n j).trans (h6 n _)
  simp only [w1a, w1b, w1c, h0, h1, h2, h3, h4, h5, sum_selector, cmp_bitVal_half]
  rfl

/-! ## The index maps, decided over the 32 grid points -/

/-- The three row-blocked inputs move with the output block; the seven whole operands stay at block zero; the output's
    block number along the rows is at most 31 and along its one column is zero. -/
theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = win0_10.index t (0 : Fin 2) ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0 ∧ win0_8.index t (0 : Fin 1) = 0 ∧ win0_9.index t (0 : Fin 1) = 0
    ∧ win0_10.index t (0 : Fin 2) ≤ 31 ∧ win0_10.index t (1 : Fin 2) = 0 :=
  (by decide +kernel : ∀ t : Fin grid0.N, _)

/-- Every one of the 32 row blocks is some point's. -/
theorem idx_onto : ∀ q : Fin 32, ∃ t : Fin cfg0.N, win0_10.index t (0 : Fin 2) = q.val ∧ win0_10.index t (1 : Fin 2) = 0 :=
  (by decide +kernel : ∀ q : Fin 32, ∃ t : Fin grid0.N, win0_10.index t (0 : Fin 2) = q.val ∧ win0_10.index t (1 : Fin 2) = 0)

/-- Batch row 512 T + r. -/
abbrev rowOf (T : ℕ) (hT : T ≤ 31) (r : Fin 512) : Fin 16384 := ⟨T * 512 + r.val, by omega⟩

variable (m : (ℓ : Loc nD τ sig) → Buf (Elt Ideal) ℓ) (ρ : Dev nD → PrngReg)

/-! ## The windows' blocks at a point, read at an index -/

theorem blk0_apply (c : Dev nD) (t : Fin cfg0.N) (T : ℕ) (hT : T ≤ 31) (e0 : win0_0.index t (0 : Fin 2) = T)
    (e1 : win0_0.index t (1 : Fin 2) = 0) (r : Fin 512) (k : Fin 1024) :
    iblk m c 0 t (ix2 r k) = (m ((c : Thread nD τ).loc main_arg0) : S16384x1024.Idx → EReal) (ix2 (rowOf T hT r) k) := by
  show V m c main_arg0 (((cfg0.win 0).blk t).view.emb (ix2 r k)) = _
  rw [V_main_arg0]
  refine congrArg _ (funext fun a => Fin.ext ?_)
  match a with
  | ⟨0, _⟩ => show win0_0.index t (0 : Fin 2) * 512 + 1 * r.val = T * 512 + r.val; rw [e0]; omega
  | ⟨1, _⟩ => show win0_0.index t (1 : Fin 2) * 1024 + 1 * k.val = k.val; rw [e1]; omega

theorem blk1_apply (c : Dev nD) (t : Fin cfg0.N) (T : ℕ) (hT : T ≤ 31) (e0 : win0_1.index t (0 : Fin 2) = T)
    (e1 : win0_1.index t (1 : Fin 2) = 0) (r : Fin 512) (k : Fin 1024) :
    iblk m c 1 t (ix2 r k) = (m ((c : Thread nD τ).loc main_arg1) : S16384x1024.Idx → EReal) (ix2 (rowOf T hT r) k) := by
  show V m c main_arg1 (((cfg0.win 1).blk t).view.emb (ix2 r k)) = _
  rw [V_main_arg1]
  refine congrArg _ (funext fun a => Fin.ext ?_)
  match a with
  | ⟨0, _⟩ => show win0_1.index t (0 : Fin 2) * 512 + 1 * r.val = T * 512 + r.val; rw [e0]; omega
  | ⟨1, _⟩ => show win0_1.index t (1 : Fin 2) * 1024 + 1 * k.val = k.val; rw [e1]; omega

theorem blk2_apply (c : Dev nD) (t : Fin cfg0.N) (T : ℕ) (hT : T ≤ 31) (e0 : win0_2.index t (0 : Fin 2) = T)
    (e1 : win0_2.index t (1 : Fin 2) = 0) (r : Fin 512) (f : Fin 40) :
    iblk m c 2 t (ix2 r f) = (m ((c : Thread nD τ).loc main_arg2) : S16384x40.Idx → BitVec 32) (ix2 (rowOf T hT r) f) := by
  show V m c main_arg2 (((cfg0.win 2).blk t).view.emb (ix2 r f)) = _
  rw [V_main_arg2]
  refine congrArg _ (funext fun a => Fin.ext ?_)
  match a with
  | ⟨0, _⟩ => show win0_2.index t (0 : Fin 2) * 512 + 1 * r.val = T * 512 + r.val; rw [e0]; omega
  | ⟨1, _⟩ => show win0_2.index t (1 : Fin 2) * 40 + 1 * f.val = f.val; rw [e1]; omega

theorem blk3_apply (c : Dev nD) (t : Fin cfg0.N) (e0 : win0_3.index t (0 : Fin 1) = 0) (j : Fin 640) :
    iblk m c 3 t (ix1 j) = (V m c main_v0 : S640.Idx → EReal) (ix1 j) := by
  show V m c main_v0 (((cfg0.win 3).blk t).view.emb (ix1 j)) = _
  refine congrArg _ (funext fun a => Fin.ext ?_)
  match a with
  | ⟨0, _⟩ => show win0_3.index t (0 : Fin 1) * 640 + 1 * j.val = j.val; rw [e0]; omega

theorem blk4_apply (c : Dev nD) (t : Fin cfg0.N) (e0 : win0_4.index t (0 : Fin 1) = 0) (j : Fin 640) :
    iblk m c 4 t (ix1 j) = (V m c main_v1 : S640.Idx → EReal) (ix1 j) := by
  show V m c main_v1 (((cfg0.win 4).blk t).view.emb (ix1 j)) = _
  refine congrArg _ (funext fun a => Fin.ext ?_)
  match a with
  | ⟨0, _⟩ => show win0_4.index t (0 : Fin 1) * 640 + 1 * j.val = j.val; rw [e0]; omega

theorem blk5_apply (c : Dev nD) (t : Fin cfg0.N) (e0 : win0_5.index t (0 : Fin 2) = 0) (e1 : win0_5.index t (1 : Fin 2) = 0)
    (f : Fin 40) (j : Fin 640) :
    iblk m c 5 t (ix2 f j) = (V m c main_v9 : S40x640.Idx → EReal) (ix2 f j) := by
  show V m c main_v9 (((cfg0.win 5).blk t).view.emb (ix2 f j)) = _
  refine congrArg _ (funext fun a => Fin.ext ?_)
  match a with
  | ⟨0, _⟩ => show win0_5.index t (0 : Fin 2) * 40 + 1 * f.val = f.val; rw [e0]; omega
  | ⟨1, _⟩ => show win0_5.index t (1 : Fin 2) * 640 + 1 * j.val = j.val; rw [e1]; omega

theorem blk6_apply (c : Dev nD) (t : Fin cfg0.N) (e0 : win0_6.index t (0 : Fin 2) = 0) (e1 : win0_6.index t (1 : Fin 2) = 0)
    (n : Fin 4096) (k : Fin 2688) :
    iblk m c 6 t (ix2 n k) = (V m c main_v10 : S4096x2688.Idx → EReal) (ix2 n k) := by
  show V m c main_v10 (((cfg0.win 6).blk t).view.emb (ix2 n k)) = _
  refine congrArg _ (funext fun a => Fin.ext ?_)
  match a with
  | ⟨0, _⟩ => show win0_6.index t (0 : Fin 2) * 4096 + 1 * n.val = n.val; rw [e0]; omega
  | ⟨1, _⟩ => show win0_6.index t (1 : Fin 2) * 2688 + 1 * k.val = k.val; rw [e1]; omega

theorem blk7_apply (c : Dev nD) (t : Fin cfg0.N) (e0 : win0_7.index t (0 : Fin 1) = 0) (n : Fin 4096) :
    iblk m c 7 t (ix1 n) = (m ((c : Thread nD τ).loc main_arg6) : S4096.Idx → EReal) (ix1 n) := by
  show V m c main_arg6 (((cfg0.win 7).blk t).view.emb (ix1 n)) = _
  rw [V_main_arg6]
  refine congrArg _ (funext fun a => Fin.ext ?_)
  match a with
  | ⟨0, _⟩ => show win0_7.index t (0 : Fin 1) * 4096 + 1 * n.val = n.val; rw [e0]; omega

theorem blk8_apply (c : Dev nD) (t : Fin cfg0.N) (e0 : win0_8.index t (0 : Fin 1) = 0) (n : Fin 4096) :
    iblk m c 8 t (ix1 n) = (V m c main_v11 : S4096.Idx → EReal) (ix1 n) := by
  show V m c main_v11 (((cfg0.win 8).blk t).view.emb (ix1 n)) = _
  refine congrArg _ (funext fun a => Fin.ext ?_)
  match a with
  | ⟨0, _⟩ => show win0_8.index t (0 : Fin 1) * 4096 + 1 * n.val = n.val; rw [e0]; omega

theorem blk9_apply (c : Dev nD) (t : Fin cfg0.N) (e0 : win0_9.index t (0 : Fin 1) = 0) (u : Fin 1) :
    iblk m c 9 t (ix1 u) = (m ((c : Thread nD τ).loc main_arg8) : S1.Idx → EReal) (ix1 u) := by
  show V m c main_arg8 (((cfg0.win 9).blk t).view.emb (ix1 u)) = _
  rw [V_main_arg8]
  refine congrArg _ (funext fun a => Fin.ext ?_)
  match a with
  | ⟨0, _⟩ => show win0_9.index t (0 : Fin 1) * 1 + 1 * u.val = u.val; rw [e0]; omega

/-! ## The result array -/

/-- The network applied to core c's argument arrays as launched. -/
abbrev result (c : Dev nD) : S16384x1.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- WHAT POINT t WRITES BACK is its block of rows of the network's result. -/
theorem flushed_eq (c : Dev nD) (t : Fin cfg0.N) :
    (dats m 0 c).flushed 10 t = ((cfg0.win 10).blk t).view.read (Elt Ideal) (result m c) := by
  show (cfg0.win 10).cut (grid0.coords t) ((dats m 0 c).after 10 t) = _
  rw [after0_10]
  obtain ⟨a0, a0', a1, a1', a2, a2', a3, a4, a5, a5', a6, a6', a7, a8, a9, hT, hcol⟩ := idx_facts t
  funext y
  obtain ⟨r, u, rfl⟩ : ∃ (r : Fin 512) (u : Fin 1), y = ix2 r u := ⟨y 0, y 1, eq_ix2 y⟩
  obtain rfl : u = 0 := Subsingleton.elim _ _
  have hrow : ((cfg0.win 10).blk t).view.emb (ix2 r (0 : Fin 1)) = ix2 (rowOf (win0_10.index t (0 : Fin 2)) hT r) (0 : Fin 1) := by
    funext a; apply Fin.ext
    match a with
    | ⟨0, _⟩ => show win0_10.index t (0 : Fin 2) * 512 + 1 * r.val = win0_10.index t (0 : Fin 2) * 512 + r.val; omega
    | ⟨1, _⟩ => show win0_10.index t (1 : Fin 2) * 1 + 1 * 0 = 0; rw [hcol]
  show out0_10 (F := Ideal) (iblk m c 0 t) (iblk m c 1 t) (iblk m c 2 t) (iblk m c 3 t) (iblk m c 4 t) (iblk m c 5 t)
      (iblk m c 6 t) (iblk m c 7 t) (iblk m c 8 t) (iblk m c 9 t) (ix2 r (0 : Fin 1))
    = result m c (((cfg0.win 10).blk t).view.emb (ix2 r (0 : Fin 1)))
  rw [hrow]
  exact block_row (iblk m c 0 t) (iblk m c 1 t) (iblk m c 2 t) (iblk m c 3 t) (iblk m c 4 t) (iblk m c 5 t)
    (iblk m c 6 t) (iblk m c 7 t) (iblk m c 8 t) (iblk m c 9 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (rowOf (win0_10.index t (0 : Fin 2)) hT r) r
    (fun k => blk0_apply m c t _ hT a0 a0' r k)
    (fun k => blk1_apply m c t _ hT a1 a1' r k)
    (fun f => blk2_apply m c t _ hT a2 a2' r f)
    (fun j => (blk3_apply m c t a3 j).trans (onFlat_apply m c j))
    (fun j => (blk4_apply m c t a4 j).trans (offFlat_apply m c j))
    (fun f j => (blk5_apply m c t a5 a5' f j).trans (selector_apply m c f j))
    (fun n k => (blk6_apply m c t a6 a6' n k).trans (congrFun (w1_eq m c) (ix2 n k)))
    (fun n => blk7_apply m c t a7 n)
    (fun n => (blk8_apply m c t a8 n).trans (w2Flat_apply m c n))
    (blk9_apply m c t a9 (0 : Fin 1))

/-- An index of the result array is in point t's block iff each coordinate is in the block's range on its axis. -/
theorem mem_blk (t : Fin cfg0.N) (i : S16384x1.Idx) :
    i ∈ ((cfg0.win 10).blk t).view.set ↔ ∀ a : Fin 2, win0_10.index t a * S512x1.size a ≤ (i a).val
      ∧ (i a).val < win0_10.index t a * S512x1.size a + S512x1.size a := by
  show i ∈ ((View.whole main_v12).slice (win0_10.rect t)).set ↔ _
  rw [View.set_slice_whole, Rect.mem_set_unit]
  exact Iff.rfl

/-- The 32 blocks cover the array: row b is in the block of the point whose block number is b / 512. -/
theorem cover (i : S16384x1.Idx) : ∃ t : Fin cfg0.N, (cfg0.win 10).flush t = true ∧ i ∈ ((cfg0.win 10).blk t).view.set := by
  have hi0 : (i 0).val < 16384 := (i 0).isLt
  have hi1 : (i 1).val < 1 := (i 1).isLt
  obtain ⟨t, q0, q1⟩ := idx_onto ⟨(i 0).val / 512, by omega⟩
  have q0' : win0_10.index t (0 : Fin 2) = (i 0).val / 512 := q0
  refine ⟨t, flush0_10 t, ?_⟩
  rw [mem_blk]
  intro a
  match a with
  | ⟨0, _⟩ =>
    show win0_10.index t (0 : Fin 2) * 512 ≤ (i 0).val ∧ (i 0).val < win0_10.index t (0 : Fin 2) * 512 + 512
    rw [q0']; omega
  | ⟨1, _⟩ =>
    show win0_10.index t (1 : Fin 2) * 1 ≤ (i 1).val ∧ (i 1).val < win0_10.index t (1 : Fin 2) * 1 + 1
    rw [q1]; omega

/-- THE ARRAY after the run is the network's result. -/
theorem final (c : Dev nD) : (dats m 0 c).arrAt 10 cfg0.N = result m c :=
  (dats m 0 c).arrAt_eq_of_cover 10 (result m c) (fun t _ => flushed_eq m c t) cover

/-- The kernel's run: every weakly fair execution ends with the result array at the network's result of the argument
    arrays, and the argument arrays as launched. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 10).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c)))⟩)
    (run_main m ρ)

end Cert.Mlp

end
-- ==== Proof.MlpRef.lean ====
/-
  The reference's result, read one operation at a time, is the network of MlpSpec.lean applied to its arguments.

  The reference selects the feature entries with the mask test itself, lays them flat (position 16 f + e of row b is
  entry (b, f, e)), joins the two embedding arrays and the flat features side by side into rows of 2688 numbers, and
  takes two matrix products: with the transposed first-layer weights (plus bias, clamped at zero) and with the
  transposed second-layer weight row (plus bias). At the exact values a matrix product is a plain sum over the
  contracted coordinate, and the sum over a joined row is the sum of the sums over its three stretches.
-/
import proofs.«133938_j59820304499359_2_alg».proof.Proof.Gen.ReferenceIdeal.Read
import proofs.«133938_j59820304499359_2_alg».proof.Proof.MlpSpec
import Idealize.ShloMosaic.Lib.Pipeline.Value
import Idealize.ShloMosaic.Lib.ValueIdx

set_option maxRecDepth 16384

noncomputable section

open scoped BigOperators

namespace Cert.Mlp.Ref

open Cert.Mlp Cert.ReferenceIdeal Cert.ReferenceIdeal.Gen Cert.ReferenceIdeal.Read
open Idealize.ShloMosaic Idealize.ShloMosaic.ValueIdx

/-! ## The joined rows, stretch by stretch -/

/-- Positions 0 … 1023 of a joined row are the first embedding's row. -/
theorem joined_first (x0 x1 : FVec Ideal S16384x1024 .f32) (v6 : FVec Ideal S16384x640 .f32) (b : Fin 16384) (k : Fin 1024) :
    concatenate S16384x2688 1 [⟨S16384x1024, x0⟩, ⟨S16384x1024, x1⟩, ⟨S16384x640, v6⟩]
        concatenates_S16384x1024_S16384x1024_S16384x640_S16384x2688_d1 (ix2 b (⟨k.val, by omega⟩ : Fin 2688))
      = x0 (ix2 b k) :=
  concatenate_apply_piece (t := S16384x2688) 1 [⟨S16384x1024, x0⟩, ⟨S16384x1024, x1⟩, ⟨S16384x640, v6⟩]
    concatenates_S16384x1024_S16384x1024_S16384x640_S16384x2688_d1
    (ix2 b (⟨k.val, by omega⟩ : Fin 2688)) 0 (by show (0 : ℕ) < 3; omega) S16384x1024 x0 rfl rfl 0 rfl (ix2 b k)
    (fun a ha => by
      match a with
      | ⟨0, _⟩ => rfl
      | ⟨1, _⟩ => exact absurd rfl ha)
    (by show 0 + k.val = k.val; omega)

/-- Positions 1024 … 2047 are the second embedding's row. -/
theorem joined_second (x0 x1 : FVec Ideal S16384x1024 .f32) (v6 : FVec Ideal S16384x640 .f32) (b : Fin 16384) (k : Fin 1024) :
    concatenate S16384x2688 1 [⟨S16384x1024, x0⟩, ⟨S16384x1024, x1⟩, ⟨S16384x640, v6⟩]
        concatenates_S16384x1024_S16384x1024_S16384x640_S16384x2688_d1 (ix2 b (⟨1024 + k.val, by omega⟩ : Fin 2688))
      = x1 (ix2 b k) :=
  concatenate_apply_piece (t := S16384x2688) 1 [⟨S16384x1024, x0⟩, ⟨S16384x1024, x1⟩, ⟨S16384x640, v6⟩]
    concatenates_S16384x1024_S16384x1024_S16384x640_S16384x2688_d1
    (ix2 b (⟨1024 + k.val, by omega⟩ : Fin 2688)) 1 (by show (1 : ℕ) < 3; omega) S16384x1024 x1 rfl rfl 1024 rfl (ix2 b k)
    (fun a ha => by
      match a with
      | ⟨0, _⟩ => rfl
      | ⟨1, _⟩ => exact absurd rfl ha)
    (by show 1024 + k.val = 1024 + k.val; rfl)

/-- Positions 2048 … 2687 are the flat features' row. -/
theorem joined_third (x0 x1 : FVec Ideal S16384x1024 .f32) (v6 : FVec Ideal S16384x640 .f32) (b : Fin 16384) (j : Fin 640) :
    concatenate S16384x2688 1 [⟨S16384x1024, x0⟩, ⟨S16384x1024, x1⟩, ⟨S16384x640, v6⟩]
        concatenates_S16384x1024_S16384x1024_S16384x640_S16384x2688_d1 (ix2 b (⟨2048 + j.val, by omega⟩ : Fin 2688))
      = v6 (ix2 b j) :=
  concatenate_apply_piece (t := S16384x2688) 1 [⟨S16384x1024, x0⟩, ⟨S16384x1024, x1⟩, ⟨S16384x640, v6⟩]
    concatenates_S16384x1024_S16384x1024_S16384x640_S16384x2688_d1
    (ix2 b (⟨2048 + j.val, by omega⟩ : Fin 2688)) 2 (by show (2 : ℕ) < 3; omega) S16384x640 v6 rfl rfl 2048 rfl (ix2 b j)
    (fun a ha => by
      match a with
      | ⟨0, _⟩ => rfl
      | ⟨1, _⟩ => exact absurd rfl ha)
    (by show 2048 + j.val = 2048 + j.val; rfl)

/-! ## The stages -/

variable (x0 x1 : FVec Ideal S16384x1024 .f32) (x2 : IVec S16384x40 32) (x3 x4 : FVec Ideal S40x16 .f32)
  (x5 : FVec Ideal S4096x2688 .f32) (x6 : FVec Ideal S4096 .f32) (x7 : FVec Ideal S1x4096 .f32) (x8 : FVec Ideal S1 .f32)

/-- The flat features: position j of row b is the selected table entry of feature j / 16. -/
theorem flatFeat_apply (b : Fin 16384) (j : Fin 640) :
    val_main_v6 (F := Ideal) x2 x3 x4 (ix2 b j) = feat x2 x3 x4 b j := by
  have hb : b.val < 16384 := b.isLt
  have hj : j.val < 640 := j.isLt
  rw [val_main_v6_apply, val_main_v5_apply, val_main_call0_v0_apply, val_main_call0_v1_apply, val_main_call0_v2_apply,
    val_main_v2_apply, val_main_v0_apply, val_main_v1_apply, val_main_v3_apply, val_main_v4_apply]
  have e0 : idx_main_v0 (idx_main_call0_v0 (idx_main_v6 (ix2 b j))) = ix2 b (featRow j) :=
    funext fun a => Fin.ext (by
      match a with
      | ⟨0, _⟩ => show (b.val * 640 + j.val) / 640 = b.val; omega
      | ⟨1, _⟩ => show (b.val * 640 + j.val) / 16 % 40 = j.val / 16; omega)
  have e3 : idx_main_v3 (idx_main_call0_v1 (idx_main_v6 (ix2 b j))) = ix2 (featRow j) (featCol j) :=
    funext fun a => Fin.ext (by
      match a with
      | ⟨0, _⟩ => show (b.val * 640 + j.val) / 16 % 40 = j.val / 16; omega
      | ⟨1, _⟩ => show (b.val * 640 + j.val) % 16 = j.val % 16; omega)
  have e4 : idx_main_v4 (idx_main_call0_v2 (idx_main_v6 (ix2 b j))) = ix2 (featRow j) (featCol j) :=
    funext fun a => Fin.ext (by
      match a with
      | ⟨0, _⟩ => show (b.val * 640 + j.val) / 16 % 40 = j.val / 16; omega
      | ⟨1, _⟩ => show (b.val * 640 + j.val) % 16 = j.val % 16; omega)
  rw [e0, e3, e4]
  rfl

/-- The first layer, clamped: at (b, n) the network's hidden unit. -/
theorem hidden_apply (b : Fin 16384) (n : Fin 4096) :
    val_main_v13 (F := Ideal) x0 x1 x2 x3 x4 x5 x6 (ix2 b n) = hidden x0 x1 x2 x3 x4 x5 x6 b n := by
  rw [val_main_v13_apply, val_main_v12_apply, val_main_v9_apply, val_main_v11_apply, val_main_v10_apply,
    val_main_call1_v0_apply, val_main_call1_cst_apply]
  have hl : ∀ k : Fin 2688, lidx_main_v9 (ix2 b n) k = ix2 b k := fun k => funext fun a => Fin.ext (by
    match a with
    | ⟨0, _⟩ => rfl
    | ⟨1, _⟩ => rfl)
  have hr : ∀ k : Fin 2688, val_main_v8 (F := Ideal) x5 (ridx_main_v9 (ix2 b n) k) = x5 (ix2 n k) := fun k =>
    (val_main_v8_apply (F := Ideal) x5 _).trans (congrArg x5 (funext fun a => Fin.ext (by
      match a with
      | ⟨0, _⟩ => rfl
      | ⟨1, _⟩ => rfl)))
  have hb1 : idx_main_v10 (idx_main_v11 (ix2 b n)) = ix1 n := funext fun a => Fin.ext (by
    match a with
    | ⟨0, _⟩ => rfl)
  simp only [hl, hr]
  rw [hb1, sum_three (fun k : Fin 2688 => val_main_v7 (F := Ideal) x0 x1 x2 x3 x4 (ix2 b k) * x5 (ix2 n k))]
  unfold val_main_v7
  simp only [joined_first, joined_second, joined_third, flatFeat_apply]
  rfl

/-- THE REFERENCE'S RESULT is the network's. -/
theorem result_eq :
    val_main_v18 (F := Ideal) x0 x1 x2 x3 x4 x5 x6 x7 x8 = G x0 x1 x2 x3 x4 x5 x6 x7 x8 := by
  funext i
  obtain ⟨b, u, rfl⟩ : ∃ (b : Fin 16384) (u : Fin 1), i = ix2 b u := ⟨i 0, i 1, eq_ix2 i⟩
  obtain rfl : u = 0 := Subsingleton.elim _ _
  rw [val_main_v18_apply, val_main_v15_apply, val_main_v17_apply, val_main_v16_apply]
  have hl : ∀ k : Fin 4096, lidx_main_v15 (ix2 b (0 : Fin 1)) k = ix2 b k := fun k => funext fun a => Fin.ext (by
    match a with
    | ⟨0, _⟩ => rfl
    | ⟨1, _⟩ => rfl)
  have hr : ∀ k : Fin 4096, val_main_v14 (F := Ideal) x7 (ridx_main_v15 (ix2 b (0 : Fin 1)) k) = x7 (ix2 (0 : Fin 1) k) := fun k =>
    (val_main_v14_apply (F := Ideal) x7 _).trans (congrArg x7 (funext fun a => Fin.ext (by
      match a with
      | ⟨0, _⟩ => rfl
      | ⟨1, _⟩ => rfl)))
  have hb2 : idx_main_v16 (idx_main_v17 (ix2 b (0 : Fin 1))) = ix1 (0 : Fin 1) := funext fun a => Fin.ext (by
    match a with
    | ⟨0, _⟩ => rfl)
  simp only [hl, hr, hidden_apply]
  rw [hb2]
  rfl

end Cert.Mlp.Ref

end
-- ==== Proof.lean ====
/-
  A two-layer network over 16384 batch rows, computed by a kernel block by block and by a reference in one piece: the two
  results are equal on the extended reals.

  THE FUNCTION (Proof/MlpSpec.lean). Row b has two embedding rows of 1024 numbers and forty integer mask entries; each
  feature f has an "on" and an "off" table row of sixteen numbers, and the row takes the "on" entries where its mask entry
  is positive. These 2688 numbers meet a first layer of 4096 weight rows with a bias and a clamp at zero from below, and a
  second layer of one weight row and one bias: out(b) = Σ_n max(Σ_k in(b,k) W1(n,k) + b1(n), 0) W2(0,n) + b2(0).

  THE KERNEL (Proof/MlpBlock.lean, MlpHost.lean, MlpKernel.lean). Grid point t handles rows 512 t … 512 t + 511. It never
  forms the joined row of 2688 numbers: it adds three products, one per stretch of the weight rows, which is the same
  sum split in three. It builds the feature entries by a select driven, not by the mask test itself, but by the product of
  the row's 0/1 mask numbers with a 40 x 640 selector matrix (the identity with each column repeated sixteen times)
  compared with one half; the product picks the one mask number of the position's feature, and a 0/1 number is above one
  half exactly when it is 1. Its second layer is a multiplication by the weight row and a sum along the lanes. The
  changes of float format on the way are the identity at the exact values. The 32 blocks of rows tile the result.

  THE REFERENCE (Proof/MlpRef.lean). It selects by the mask test, joins the three stretches into one row, and takes two
  matrix products with transposed weights; read one operation at a time it is the function above, by the split of a sum
  over 2688 positions into its three stretches.

  No law used needs the inputs finite (addition of extended reals is commutative and associative, and the selector
  matrix's entries and the mask numbers are 0 and 1), so the precondition is not opened. The three frames are the
  generated ones (the reference's is its generated run with the result dropped); the idealization rewrote nothing, so
  the claim about it is trivial.
-/
import proofs.«133938_j59820304499359_2_alg».proof.Defs
import proofs.«133938_j59820304499359_2_alg».proof.Proof.Gen.Kernel
import proofs.«133938_j59820304499359_2_alg».proof.Proof.Gen.Kernel.Skeleton
import proofs.«133938_j59820304499359_2_alg».proof.Proof.Gen.Kernel.Launch
import proofs.«133938_j59820304499359_2_alg».proof.Proof.Gen.Kernel.Points
import proofs.«133938_j59820304499359_2_alg».proof.Proof.Gen.Kernel.Frame
import proofs.«133938_j59820304499359_2_alg».proof.Proof.Gen.KernelIdeal
import proofs.«133938_j59820304499359_2_alg».proof.Proof.Gen.KernelIdeal.Skeleton
import proofs.«133938_j59820304499359_2_alg».proof.Proof.Gen.KernelIdeal.Launch
import proofs.«133938_j59820304499359_2_alg».proof.Proof.Gen.KernelIdeal.Points
import proofs.«133938_j59820304499359_2_alg».proof.Proof.Gen.KernelIdeal.Frame
import proofs.«133938_j59820304499359_2_alg».proof.Proof.Gen.ReferenceIdeal
import proofs.«133938_j59820304499359_2_alg».proof.Proof.Gen.ReferenceIdeal.Run
import proofs.«133938_j59820304499359_2_alg».proof.Proof.Gen.ReferenceIdeal.Read
import proofs.«133938_j59820304499359_2_alg».proof.Proof.Gen.Pre_finite_inputs
import proofs.«133938_j59820304499359_2_alg».proof.Proof.MlpKernel
import proofs.«133938_j59820304499359_2_alg».proof.Proof.MlpRef
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the network's result of the (agreeing) argument arrays. -/
theorem algebraic : Cert.algebraic_KernelIdeal_ReferenceIdeal := by
  intro m ρ m' ρ' _ hagree
  refine ⟨fun c => Cert.Mlp.result m c, Cert.Mlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Mlp.Ref.result_eq]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
